-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x128 : Shape := ⟨4, ![4, 16, 2048, 128]⟩
abbrev S4x2048 : Shape := ⟨2, ![4, 2048]⟩
abbrev S_ : Shape := ⟨0, ![]⟩

class Facts : Prop where
  bcast_S_S4x16x2048x128 : S_.BroadcastsInDim S4x16x2048x128 (![] : Fin 0 → Fin S4x16x2048x128.rank)
  reducesTo_S4x16x2048x128_S_d0_1_2_3 : S4x16x2048x128.ReducesTo [0, 1, 2, 3] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_v13 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v13 main_v17
  main_v18

def fn {F : FTy → Type} [FloatOps F] (main_arg0 : FVec F S4x16x2048x128 .f32) (main_arg1 : FVec F S4x16x2048x128 .f32) (main_arg2 : FVec F S4x16x2048x128 .f32) (main_arg3 : FVec F S4x2048 .f32) : IVec S_ 1 :=
  let main_v0 : FVec F S4x16x2048x128 .f32 := Host.absf main_arg0
  let main_cst : FVec F S_ .f32 := constant S_ .f32 0x7F800000#32
  let main_v1 : FVec F S4x16x2048x128 .f32 := broadcastInDim S4x16x2048x128 ![] bcast_S_S4x16x2048x128 main_cst
  let main_v2 : IVec S4x16x2048x128 1 := cmpf .olt main_v0 main_v1
  let main_c : IVec S_ 1 := constantI S_ 1 1#1
  let main_v3 : IVec S_ 1 := (fun x v => Host.reduce IntOp.andi x v reducesTo_S4x16x2048x128_S_d0_1_2_3 h_S_) main_v2 main_c
  let main_v4 : FVec F S4x16x2048x128 .f32 := Host.absf main_arg1
  let main_cst_0 : FVec F S_ .f32 := constant S_ .f32 0x7F800000#32
  let main_v5 : FVec F S4x16x2048x128 .f32 := broadcastInDim S4x16x2048x128 ![] bcast_S_S4x16x2048x128 main_cst_0
  let main_v6 : IVec S4x16x2048x128 1 := cmpf .olt main_v4 main_v5
  let main_c_1 : IVec S_ 1 := constantI S_ 1 1#1
  let main_v7 : IVec S_ 1 := (fun x v => Host.reduce IntOp.andi x v reducesTo_S4x16x2048x128_S_d0_1_2_3 h_S_) main_v6 main_c_1
  let main_v8 : IVec S_ 1 := andi main_v3 main_v7
  let main_v9 : FVec F S4x16x2048x128 .f32 := Host.absf main_arg2
  let main_cst_2 : FVec F S_ .f32 := constant S_ .f32 0x7F800000#32
  let main_v10 : FVec F S4x16x2048x128 .f32 := broadcastInDim S4x16x2048x128 ![] bcast_S_S4x16x2048x128 main_cst_2
  let main_v11 : IVec S4x16x2048x128 1 := cmpf .olt main_v9 main_v10
  let main_c_3 : IVec S_ 1 := constantI S_ 1 1#1
  let main_v12 : IVec S_ 1 := (fun x v => Host.reduce IntOp.andi x v reducesTo_S4x16x2048x128_S_d0_1_2_3 h_S_) main_v11 main_c_3
  let main_v13 : IVec S_ 1 := andi main_v8 main_v12
  let main_v14 : FVec F S4x2048 .f32 := Host.absf main_arg3
  let main_cst_4 : FVec F S_ .f32 := constant S_ .f32 0x7F800000#32
  let main_v15 : FVec F S4x2048 .f32 := broadcastInDim S4x2048 ![] bcast_S_S4x2048 main_cst_4
  let main_v16 : IVec S4x2048 1 := cmpf .olt main_v14 main_v15
  fn_part1 (F := F) main_v13 main_v16
-- ==== Kernel.lean ====
abbrev S4x16x2048x128 : Shape := ⟨4, ![4, 16, 2048, 128]⟩
abbrev S4x2048 : Shape := ⟨2, ![4, 2048]⟩
abbrev S1x4x2048x128 : Shape := ⟨4, ![1, 4, 2048, 128]⟩
abbrev S4x2048x128 : Shape := ⟨3, ![4, 2048, 128]⟩
abbrev S1x2048 : Shape := ⟨2, ![1, 2048]⟩
abbrev S2048 : Shape := ⟨1, ![2048]⟩
abbrev S1x2048x1 : Shape := ⟨3, ![1, 2048, 1]⟩
abbrev S4x128x128 : Shape := ⟨3, ![4, 128, 128]⟩
abbrev S4x2048x1 : Shape := ⟨3, ![4, 2048, 1]⟩

abbrev nBuf : Space → Nat
  | .hbm => 5
  | .vmem => 9
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S4x2048, .f32⟩
  | .hbm, ⟨4, _⟩ => ⟨S4x16x2048x128, .f32⟩
  | .local _ .vmem, ⟨0, _⟩ => ⟨S1x4x2048x128, .f32⟩
  | .local _ .vmem, ⟨1, _⟩ => ⟨S1x4x2048x128, .f32⟩
  | .local _ .vmem, ⟨2, _⟩ => ⟨S1x4x2048x128, .f32⟩
  | .local _ .vmem, ⟨3, _⟩ => ⟨S1x4x2048x128, .f32⟩
  | .local _ .vmem, ⟨4, _⟩ => ⟨S1x4x2048x128, .f32⟩
  | .local _ .vmem, ⟨5, _⟩ => ⟨S1x4x2048x128, .f32⟩
  | .local _ .vmem, ⟨6, _⟩ => ⟨S4x2048, .f32⟩
  | .local _ .vmem, ⟨7, _⟩ => ⟨S1x4x2048x128, .f32⟩
  | .local _ .vmem, ⟨8, _⟩ => ⟨S1x4x2048x128, .f32⟩
  | _, _ => ⟨S4x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let v6 : Index := Scalar.indexCast arg0
  let c0_11 : Index := 0#32
  ![v6.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x4x2048x128_S1x4x2048x128_0_0_0_0 : ∀ a, (![0, 0, 0, 0] : Fin 4 → Nat) a + S1x4x2048x128.size a ≤ S1x4x2048x128.size a
  h_S1x4x2048x128 : 0 < S1x4x2048x128.numel
  shapeCasts_S1x4x2048x128_S4x2048x128 : S1x4x2048x128.ShapeCasts S4x2048x128
  h_S1x2048 : 0 < S1x2048.numel
  shapeCasts_S1x2048_S2048 : S1x2048.ShapeCasts S2048
  shapeCasts_S2048_S1x2048x1 : S2048.ShapeCasts S1x2048x1
  broadcasts_S1x2048x1_S4x2048x128 : S1x2048x1.Broadcasts S4x2048x128
  bitsLt_bf16_f32 : FTy.bits .bf16 < FTy.bits .f32
  reduces_S4x2048x128_S4x2048 : S4x2048x128.Reduces [2] S4x2048
  shapeCasts_S4x2048_S4x2048x1 : S4x2048.ShapeCasts S4x2048x1
  broadcasts_S4x2048x1_S4x2048x128 : S4x2048x1.Broadcasts S4x2048x128
  shapeCasts_S4x2048x128_S1x4x2048x128 : S4x2048x128.ShapeCasts S1x4x2048x128
  dot_S4x2048x128_S4x2048x128_S4x128x128_1_1_2_2_0_0_wf : DotDims.WF S4x2048x128 S4x2048x128 S4x128x128 [1] [1] [2] [2] [0] [0]
  dot_S4x2048x128_S4x128x128_S4x2048x128_2_1_1_2_0_0_wf : DotDims.WF S4x2048x128 S4x128x128 S4x2048x128 [2] [1] [1] [2] [0] [0]
  hrank0 : 0 < grid0.rank
  k0_off1_inb : ∀ i : grid0.Coords, ∀ a, (k0_off1 i) a + S1x2048.size a ≤ S4x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x2048x128.size a ≤ S4x16x2048x128.size a
  hwx0_0 : ∀ i : grid0.Coords, EltTy.bits .f32 = 32 ∨ (Rect.block (s := S4x16x2048x128) S1x4x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x2048x128.size a ≤ S4x16x2048x128.size a
  hwx0_1 : ∀ i : grid0.Coords, EltTy.bits .f32 = 32 ∨ (Rect.block (s := S4x16x2048x128) S1x4x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x2048x128.size a ≤ S4x16x2048x128.size a
  hwx0_2 : ∀ i : grid0.Coords, EltTy.bits .f32 = 32 ∨ (Rect.block (s := S4x16x2048x128) S1x4x2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2048.size a ≤ S4x2048.size a
  hwx0_3 : ∀ i : grid0.Coords, EltTy.bits .f32 = 32 ∨ (Rect.block (s := S4x2048) S4x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x2048x128.size a ≤ S4x16x2048x128.size a
  hwx0_4 : ∀ i : grid0.Coords, EltTy.bits .f32 = 32 ∨ (Rect.block (s := S4x16x2048x128) S1x4x2048x128.size (cc0_transform_4 i) (hinb0_4 i)).WholeWords (EltTy.packing .f32)

variable [Facts₀]

def dot_S4x2048x128_S4x2048x128_S4x128x128_1_1_2_2_0_0 : DotDims S4x2048x128 S4x2048x128 S4x128x128 where
  lhsContracting := [1]
  rhsContracting := [1]
  lhsNonContracting := [2]
  rhsNonContracting := [2]
  lhsBatch := [0]
  rhsBatch := [0]
  wf := dot_S4x2048x128_S4x2048x128_S4x128x128_1_1_2_2_0_0_wf
def dot_S4x2048x128_S4x128x128_S4x2048x128_2_1_1_2_0_0 : DotDims S4x2048x128 S4x128x128 S4x2048x128 where
  lhsContracting := [2]
  rhsContracting := [1]
  lhsNonContracting := [1]
  rhsNonContracting := [2]
  lhsBatch := [0]
  rhsBatch := [0]
  wf := dot_S4x2048x128_S4x128x128_S4x2048x128_2_1_1_2_0_0_wf

abbrev win0_0 : Pipeline.Window sig grid0 :=
  Pipeline.Window.ofSpec (Memref.whole main_arg0) S1x4x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x4x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x128 : Shape := ⟨4, ![4, 16, 2048, 128]⟩
abbrev S4x2048 : Shape := ⟨2, ![4, 2048]⟩
abbrev S4x1x2048x1 : Shape := ⟨4, ![4, 1, 2048, 1]⟩
abbrev S_ : Shape := ⟨0, ![]⟩
abbrev S4x16x128x128 : Shape := ⟨4, ![4, 16, 128, 128]⟩
abbrev S4x16x2048 : Shape := ⟨3, ![4, 16, 2048]⟩
abbrev S4x16x2048x1 : Shape := ⟨4, ![4, 16, 2048, 1]⟩

abbrev nBuf : Space → Nat
  | .hbm => 60
  | .vmem => 0
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S4x2048, .f32⟩
  | .hbm, ⟨4, _⟩ => ⟨S4x1x2048x1, .f32⟩
  | .hbm, ⟨5, _⟩ => ⟨S_, .f32⟩
  | .hbm, ⟨6, _⟩ => ⟨S4x16x2048x128, .f32⟩
  | .hbm, ⟨7, _⟩ => ⟨S4x16x2048x128, .i1⟩
  | .hbm, ⟨8, _⟩ => ⟨S_, .f32⟩
  | .hbm, ⟨9, _⟩ => ⟨S4x16x2048x128, .f32⟩
  | .hbm, ⟨10, _⟩ => ⟨S4x16x2048x128, .i1⟩
  | .hbm, ⟨11, _⟩ => ⟨S_, .f32⟩
  | .hbm, ⟨12, _⟩ => ⟨S_, .f32⟩
  | .hbm, ⟨13, _⟩ => ⟨S4x16x2048x128, .f32⟩
  | .hbm, ⟨14, _⟩ => ⟨S4x16x2048x128, .f32⟩
  | .hbm, ⟨15, _⟩ => ⟨S4x16x2048x128, .f32⟩
  | .hbm, ⟨16, _⟩ => ⟨S_, .f32⟩
  | .hbm, ⟨17, _⟩ => ⟨S4x16x2048x128, .f32⟩
  | .hbm, ⟨18, _⟩ => ⟨S4x16x2048x128, .f32⟩
  | .hbm, ⟨19, _⟩ => ⟨S4x16x2048x128, .f32⟩
  | .hbm, ⟨20, _⟩ => ⟨S_, .f32⟩
  | .hbm, ⟨21, _⟩ => ⟨S4x16x2048x128, .f32⟩
  | .hbm, ⟨22, _⟩ => ⟨S4x16x2048x128, .f32⟩
  | .hbm, ⟨23, _⟩ => ⟨S_, .f32⟩
  | .hbm, ⟨24, _⟩ => ⟨S4x16x2048x128, .f32⟩
  | .hbm, ⟨25, _⟩ => ⟨S4x16x2048x128, .i1⟩
  | .hbm, ⟨26, _⟩ => ⟨S_, .f32⟩
  | .hbm, ⟨27, _⟩ => ⟨S4x16x2048x128, .f32⟩
  | .hbm, ⟨28, _⟩ => ⟨S4x16x2048x128, .i1⟩
  | .hbm, ⟨29, _⟩ => ⟨S_, .f32⟩
  | .hbm, ⟨30, _⟩ => ⟨S_, .f32⟩
  | .hbm, ⟨31, _⟩ => ⟨S4x16x2048x128, .f32⟩
  | .hbm, ⟨32, _⟩ => ⟨S4x16x2048x128, .f32⟩
  | .hbm, ⟨33, _⟩ => ⟨S4x16x2048x128, .f32⟩
  | .hbm, ⟨34, _⟩ => ⟨S_, .f32⟩
  | .hbm, ⟨35, _⟩ => ⟨S4x16x2048x128, .f32⟩
  | .hbm, ⟨36, _⟩ => ⟨S4x16x2048x128, .f32⟩
  | .hbm, ⟨37, _⟩ => ⟨S4x16x2048x128, .f32⟩
  | .hbm, ⟨38, _⟩ => ⟨S_, .f32⟩
  | .hbm, ⟨39, _⟩ => ⟨S4x16x2048x128, .f32⟩
  | .hbm, ⟨40, _⟩ => ⟨S4x16x2048x128, .f32⟩
  | .hbm, ⟨41, _⟩ => ⟨S4x16x2048x128, .f32⟩
  | .hbm, ⟨42, _⟩ => ⟨S4x16x2048x128, .f32⟩
  | .hbm, ⟨43, _⟩ => ⟨S4x16x2048x128, .f32⟩
  | .hbm, ⟨44, _⟩ => ⟨S4x16x2048x128, .f32⟩
  | .hbm, ⟨45, _⟩ => ⟨S4x16x128x128, .f32⟩
  | .hbm, ⟨46, _⟩ => ⟨S4x16x2048x128, .f32⟩
  | .hbm, ⟨47, _⟩ => ⟨S4x16x2048x128, .f32⟩
  | .hbm, ⟨48, _⟩ => ⟨S_, .f32⟩
  | .hbm, ⟨49, _⟩ => ⟨S4x16x2048, .f32⟩
  | .hbm, ⟨50, _⟩ => ⟨S4x16x2048x1, .f32⟩
  | .hbm, ⟨51, _⟩ => ⟨S_, .f32⟩
  | .hbm, ⟨52, _⟩ => ⟨S4x16x2048x1, .f32⟩
  | .hbm, ⟨53, _⟩ => ⟨S4x16x2048x1, .f32⟩
  | .hbm, ⟨54, _⟩ => ⟨S_, .f32⟩
  | .hbm, ⟨55, _⟩ => ⟨S4x16x2048x1, .f32⟩
  | .hbm, ⟨56, _⟩ => ⟨S4x16x2048x1, .f32⟩
  | .hbm, ⟨57, _⟩ => ⟨S4x16x2048x1, .f32⟩
  | .hbm, ⟨58, _⟩ => ⟨S4x16x2048x128, .f32⟩
  | .hbm, ⟨59, _⟩ => ⟨S4x16x2048x128, .f32⟩
  | _, _ => ⟨S4x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_cst_1 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_v4 : Ref sig .tc := ⟨.hbm, 14, rfl⟩
abbrev main_call0_v5 : Ref sig .tc := ⟨.hbm, 15, rfl⟩
abbrev main_call0_cst_2 : Ref sig .tc := ⟨.hbm, 16, rfl⟩
abbrev main_call0_v6 : Ref sig .tc := ⟨.hbm, 17, rfl⟩
abbrev main_call0_v7 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_cst_0 : Ref sig .tc := ⟨.hbm, 26, rfl⟩
abbrev main_call1_v2 : Ref sig .tc := ⟨.hbm, 27, rfl⟩
abbrev main_call1_v3 : Ref sig .tc := ⟨.hbm, 28, rfl⟩
abbrev main_call1_cst_1 : Ref sig .tc := ⟨.hbm, 29, rfl⟩
abbrev main_call1_call0_v0 : Ref sig .tc := ⟨.hbm, 30, rfl⟩
abbrev main_call1_call0_v1 : Ref sig .tc := ⟨.hbm, 31, rfl⟩
abbrev main_call1_v4 : Ref sig .tc := ⟨.hbm, 32, rfl⟩
abbrev main_call1_v5 : Ref sig .tc := ⟨.hbm, 33, rfl⟩
abbrev main_call1_cst_2 : Ref sig .tc := ⟨.hbm, 34, rfl⟩
abbrev main_call1_v6 : Ref sig .tc := ⟨.hbm, 35, rfl⟩
abbrev main_call1_v7 : Ref sig .tc := ⟨.hbm, 36, rfl⟩
abbrev main_v4 : Ref sig .tc := ⟨.hbm, 37, rfl⟩
abbrev main_cst_0 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_cst_2 : Ref sig .tc := ⟨.hbm, 51, rfl⟩
abbrev main_v16 : Ref sig .tc := ⟨.hbm, 52, rfl⟩
abbrev main_v17 : Ref sig .tc := ⟨.hbm, 53, rfl⟩
abbrev main_cst_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩

abbrev nD : Nat := 1
abbrev τ : Topo := Topo.v7x

variable {F : FTy → Type} [FloatOps F]

class Facts₀ : Prop where
  bcast_S4x2048_S4x1x2048x1_0_2 : S4x2048.BroadcastsInDim S4x1x2048x1 (![0, 2] : Fin 2 → Fin S4x1x2048x1.rank)
  bcast_S_S4x16x2048x128 : S_.BroadcastsInDim S4x16x2048x128 (![] : Fin 0 → Fin S4x16x2048x128.rank)
  bcast_S4x1x2048x1_S4x16x2048x128_0_1_2_3 : S4x1x2048x1.BroadcastsInDim S4x16x2048x128 (![0, 1, 2, 3] : Fin 4 → Fin S4x16x2048x128.rank)
  reducesTo_S4x16x2048x128_S4x16x2048_d3 : S4x16x2048x128.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x128_0_1_2_3 : S4x16x2048x1.BroadcastsInDim S4x16x2048x128 (![0, 1, 2, 3] : Fin 4 → Fin S4x16x2048x128.rank)
  dot_S4x16x2048x128_S4x16x2048x128_S4x16x128x128_2_2_3_3_01_01_wf : DotDims.WF S4x16x2048x128 S4x16x2048x128 S4x16x128x128 [2] [2] [3] [3] [0, 1] [0, 1]
  dot_S4x16x2048x128_S4x16x128x128_S4x16x2048x128_3_2_2_3_01_01_wf : DotDims.WF S4x16x2048x128 S4x16x128x128 S4x16x2048x128 [3] [2] [2] [3] [0, 1] [0, 1]

variable [Facts₀]

def dot_S4x16x2048x128_S4x16x2048x128_S4x16x128x128_2_2_3_3_01_01 : DotDims S4x16x2048x128 S4x16x2048x128 S4x16x128x128 where
  lhsContracting := [2]
  rhsContracting := [2]
  lhsNonContracting := [3]
  rhsNonContracting := [3]
  lhsBatch := [0, 1]
  rhsBatch := [0, 1]
  wf := dot_S4x16x2048x128_S4x16x2048x128_S4x16x128x128_2_2_3_3_01_01_wf
def dot_S4x16x2048x128_S4x16x128x128_S4x16x2048x128_3_2_2_3_01_01 : DotDims S4x16x2048x128 S4x16x128x128 S4x16x2048x128 where
  lhsContracting := [3]
  rhsContracting := [2]
  lhsNonContracting := [2]
  rhsNonContracting := [3]
  lhsBatch := [0, 1]
  rhsBatch := [0, 1]
  wf := dot_S4x16x2048x128_S4x16x128x128_S4x16x2048x128_3_2_2_3_01_01_wf

class Facts : Prop extends Facts₀ where

variable [Facts]
-- ==== Proof.Spec.lean ====
/-
  Masked linear attention with the elu + 1 feature map, followed by a root-mean-square normalisation
  over the head dimension, written as ONE function of the four argument arrays over the extended reals.

  For a batch b, a head h, a sequence position n and head coordinates d, e:
    φ(x)          = x + 1 where x > 0, eˣ elsewhere                         (the feature map, `act`)
    KV[b,h,d,e]   = Σ_n (φ(K[b,h,n,d]) · m[b,n]) · (V[b,h,n,e] · m[b,n])    (`kv`)
    A[b,h,n,e]    = Σ_d φ(Q[b,h,n,d]) · KV[b,h,d,e]                         (`att`)
    μ[b,h,n]      = (Σ_e A[b,h,n,e]²) / 128                                 (`meanSq`)
    out[b,h,n,e]  = A[b,h,n,e] · (μ[b,h,n] + ε)^(-1/2)                      (`outAt`, `out`)
  with the float literals (0, 1, 128, ε) kept as the words both programs print.

  Also here: the one scalar law that joins the two programs. jax's `elu x + 1` is
  `(x where x > 0, else 1 · (e^{x'} − 1)) + 1` with x' = 0 where x > 0 and x elsewhere; on every extended
  real that is φ(x): above zero both are x + 1; at or below zero e^x is a real in [0, 1] (0 at −∞), so
  subtracting and adding 1 cancel (`elu_add_one`).
-/
import Idealize.ShloMosaic.PureOps.Ideal
import Idealize.ShloMosaic.PureOps.Ideal.Laws
import Idealize.ShloMosaic.PureOps.IdealRules
import Idealize.ShloMosaic.Lib.ValueIdx

noncomputable section

namespace Cert.LinAttn

open Idealize.ShloMosaic Idealize.ShloMosaic.ValueIdx
open scoped BigOperators

/-- The shape of Q, K, V and of the result: batch × heads × sequence × head dimension. -/
abbrev QKV : Shape := ⟨4, ![4, 16, 2048, 128]⟩
/-- The shape of the mask: batch × sequence. -/
abbrev MSK : Shape := ⟨2, ![4, 2048]⟩

/-- The word of 1.0 denotes the extended real 1. -/
theorem one_f32 : Ideal.ofBits .f32 0x3F800000#32 = 1 := IdealRules.sign_bit.ideal_onePat .f32

/-- The feature map x ↦ elu x + 1 in its branch form: x + 1 above zero, eˣ at and below it. -/
def act (x : EReal) : EReal :=
  Scalar.select (Ideal.cmp .ogt x (Ideal.ofBits .f32 0x00000000#32)) (x + Ideal.ofBits .f32 0x3F800000#32) (Ideal.exp x)

/-- jax's spelling of elu x + 1 is the branch form, on every extended real. -/
theorem elu_add_one (x : EReal) :
    Scalar.select (Ideal.cmp .ogt x (Ideal.ofBits .f32 0x00000000#32)) x
        (Ideal.ofBits .f32 0x3F800000#32
          * (Ideal.exp (Scalar.select (Ideal.cmp .ogt x (Ideal.ofBits .f32 0x00000000#32)) (Ideal.ofBits .f32 0x00000000#32) x) - 1))
      + Ideal.ofBits .f32 0x3F800000#32 = act x := by
  unfold act
  rw [Ideal.ofBits_zero_f32, one_f32]
  by_cases h : (0 : EReal) < x
  · have hc : Ideal.cmp .ogt x 0 = 1#1 := by simp [Ideal.cmp, h]
    rw [hc, select_one, select_one]
  · have hc : Ideal.cmp .ogt x 0 = 0#1 := by simp [Ideal.cmp, h]
    rw [hc, select_zero, select_zero, select_zero, one_mul]
    induction x using EReal.rec with
    | bot =>
      simp only [Ideal.exp_bot, zero_sub]
      rw [← EReal.coe_one, ← EReal.coe_neg, ← EReal.coe_add, neg_add_cancel, EReal.coe_zero]
    | top => exact absurd (EReal.coe_lt_top 0) h
    | coe r =>
      rw [Ideal.exp_coe]
      rw [← EReal.coe_one, ← EReal.coe_sub, ← EReal.coe_add, sub_add_cancel]

variable (Q K V : QKV.Idx → EReal) (M : MSK.Idx → EReal)

/-- KV[b,h,d,e]: the masked feature-mapped keys against the masked values, summed over the sequence. -/
def kv (b : Fin 4) (h : Fin 16) (d e : Fin 128) : EReal :=
  ∑ n : Fin 2048, (act (K (ix4 b h n d)) * M (ix2 b n)) * (V (ix4 b h n e) * M (ix2 b n))

/-- A[b,h,n,e]: the feature-mapped query row against KV, summed over the head dimension. -/
def att (b : Fin 4) (h : Fin 16) (n : Fin 2048) (e : Fin 128) : EReal :=
  ∑ d : Fin 128, act (Q (ix4 b h n d)) * kv K V M b h d e

/-- μ[b,h,n]: the mean of the squares of row A[b,h,n,·]. -/
def meanSq (b : Fin 4) (h : Fin 16) (n : Fin 2048) : EReal :=
  Ideal.div (∑ e : Fin 128, att Q K V M b h n e * att Q K V M b h n e) (Ideal.ofBits .f32 0x43000000#32)

/-- The result at (b, h, n, e): the row entry times the reciprocal root of the row's mean square plus ε. -/
def outAt (b : Fin 4) (h : Fin 16) (n : Fin 2048) (e : Fin 128) : EReal :=
  att Q K V M b h n e * Ideal.rsqrt (meanSq Q K V M b h n + Ideal.ofBits .f32 0x358637BD#32)

/-- The result array. -/
def out : QKV.Idx → EReal := fun i => outAt Q K V M (i 0) (i 1) (i 2) (i 3)

theorem out_ix4 (b : Fin 4) (h : Fin 16) (n : Fin 2048) (e : Fin 128) :
    out Q K V M (ix4 b h n e) = outAt Q K V M b h n e := rfl

end Cert.LinAttn

end
-- ==== Proof.KernelPayload.lean ====
/-
  The kernel body's arithmetic read at an index, over the extended reals.

  One grid point holds four heads of one batch row: blocks q, k, v of shape [1, 4, 2048, 128] and the
  batch's mask row r of shape [1, 2048]. With φ the feature map (x + 1 above zero, eˣ elsewhere):
    the first product  KV[h,d,e] = Σ_n (φ(k[h,n,d]) · r[n]) · (v[h,n,e] · r[n])   (contraction over the sequence),
    the second product A[h,n,e]  = Σ_d φ(q[h,n,d]) · KV[h,d,e]                     (contraction over the head dimension),
    the row's mean square μ[h,n] = (Σ_e A[h,n,e]²) / 128,
    and the stored value A[h,n,e] · (μ[h,n] + ε)^(-1/2).
  A change of float format is the identity here, a product into the zero accumulator is the plain sum, and a
  lane reduction is the sum over the lane coordinate; the layout operations (dropping or adding the leading
  unit axis, the mask row as a column broadcast over heads and lanes, the keepdims column broadcast over
  lanes) each read one operand index. So when the blocks are the rows (b, H h) of the argument arrays and r
  is row b of the mask, the stored value at (h, n, e) is the specification's `outAt` at (b, H h, n, e).
-/
import proofs.«166232_j3040836845907_1_alg».proof.Proof.Spec
import proofs.«166232_j3040836845907_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.KernelIdeal.Payload

open Cert.KernelIdeal Cert.KernelIdeal.Gen Cert.LinAttn

/-! ## The two products -/

/-- The first product at (h, d, e): the sum over the sequence of lhs(h, n, d) · rhs(h, n, e). -/
theorem matmul_kv_apply (lhs rhs : FVec Ideal S4x2048x128 .bf16) (hh : Fin 4) (d e : Fin 128) :
    matmul dot_S4x2048x128_S4x2048x128_S4x128x128_1_1_2_2_0_0 none lhs rhs (constant S4x128x128 .f32 0x00000000#32) (ix3 hh d e)
      = ∑ n : Fin 2048, lhs (ix3 hh n d) * rhs (ix3 hh n e) := by
  refine (Ideal.matmul_constant_zero_apply _ none lhs rhs (ix3 hh d e)).trans ?_
  rw [← Equiv.sum_comp (contrEquiv1 dot_S4x2048x128_S4x2048x128_S4x128x128_1_1_2_2_0_0 2048 rfl rfl).symm]
  refine Finset.sum_congr rfl fun n _ => ?_
  have hl : dot_S4x2048x128_S4x2048x128_S4x128x128_1_1_2_2_0_0.lhsIdx (ix3 hh d e)
      ((contrEquiv1 dot_S4x2048x128_S4x2048x128_S4x128x128_1_1_2_2_0_0 2048 rfl rfl).symm n) = ix3 hh n d := by
    funext a
    apply Fin.ext
    match a with
    | ⟨0, _⟩ => rfl
    | ⟨1, _⟩ => rfl
    | ⟨2, _⟩ => rfl
  have hr : dot_S4x2048x128_S4x2048x128_S4x128x128_1_1_2_2_0_0.rhsIdx (ix3 hh d e)
      ((contrEquiv1 dot_S4x2048x128_S4x2048x128_S4x128x128_1_1_2_2_0_0 2048 rfl rfl).symm n) = ix3 hh n e := by
    funext a
    apply Fin.ext
    match a with
    | ⟨0, _⟩ => rfl
    | ⟨1, _⟩ => rfl
    | ⟨2, _⟩ => rfl
  rw [hl, hr]

/-- The second product at (h, n, e): the sum over the head dimension of lhs(h, n, d) · rhs(h, d, e). -/
theorem matmul_att_apply (lhs : FVec Ideal S4x2048x128 .bf16) (rhs : FVec Ideal S4x128x128 .bf16) (hh : Fin 4) (n : Fin 2048) (e : Fin 128) :
    matmul dot_S4x2048x128_S4x128x128_S4x2048x128_2_1_1_2_0_0 none lhs rhs (constant S4x2048x128 .f32 0x00000000#32) (ix3 hh n e)
      = ∑ d : Fin 128, lhs (ix3 hh n d) * rhs (ix3 hh d e) := by
  refine (Ideal.matmul_constant_zero_apply _ none lhs rhs (ix3 hh n e)).trans ?_
  rw [← Equiv.sum_comp (contrEquiv1 dot_S4x2048x128_S4x128x128_S4x2048x128_2_1_1_2_0_0 128 rfl rfl).symm]
  refine Finset.sum_congr rfl fun d _ => ?_
  have hl : dot_S4x2048x128_S4x128x128_S4x2048x128_2_1_1_2_0_0.lhsIdx (ix3 hh n e)
      ((contrEquiv1 dot_S4x2048x128_S4x128x128_S4x2048x128_2_1_1_2_0_0 128 rfl rfl).symm d) = ix3 hh n d := by
    funext a
    apply Fin.ext
    match a with
    | ⟨0, _⟩ => rfl
    | ⟨1, _⟩ => rfl
    | ⟨2, _⟩ => rfl
  have hr : dot_S4x2048x128_S4x128x128_S4x2048x128_2_1_1_2_0_0.rhsIdx (ix3 hh n e)
      ((contrEquiv1 dot_S4x2048x128_S4x128x128_S4x2048x128_2_1_1_2_0_0 128 rfl rfl).symm d) = ix3 hh d e := by
    funext a
    apply Fin.ext
    match a with
    | ⟨0, _⟩ => rfl
    | ⟨1, _⟩ => rfl
    | ⟨2, _⟩ => rfl
  rw [hl, hr]

/-! ## The layout operations, each at an index -/

/-- The mask row [1, 2048], viewed as the column [1, 2048, 1] and broadcast over heads and lanes, reads r(n) at (h, n, d). -/
theorem maskBcast_apply (r : Vec Ideal S1x2048 .f32) (hh : Fin 4) (n : Fin 2048) (d : Fin 128) :
    broadcastTo S4x2048x128 (shapeCast S1x2048x1 (shapeCast S2048 r shapeCasts_S1x2048_S2048) shapeCasts_S2048_S1x2048x1)
      broadcasts_S1x2048x1_S4x2048x128 (ix3 hh n d) = r (ix2 (0 : Fin 1) n) := by
  refine (broadcastTo_apply _ broadcasts_S1x2048x1_S4x2048x128 (ix3 hh n d) (ix3 (0 : Fin 1) n (0 : Fin 1)) fun a => ?_).trans ?_
  · match a with
    | ⟨0, _⟩ => rfl
    | ⟨1, _⟩ => rfl
    | ⟨2, _⟩ => rfl
  refine (shapeCast_apply _ shapeCasts_S2048_S1x2048x1 (ix3 (0 : Fin 1) n (0 : Fin 1)) (ix1 n) ?_).trans ?_
  · rw [Shape.rowMajor_val_three, Shape.rowMajor_val_one]
    show n.val = (0 * 2048 + n.val) * 1 + 0
    omega
  exact shapeCast_1a_a_apply r shapeCasts_S1x2048_S2048 n

/-- A column [4, 2048, 1] broadcast over the lanes reads its row's entry. -/
theorem colBcast_apply (x : FVec Ideal S4x2048x1 .f32) (hh : Fin 4) (n : Fin 2048) (e : Fin 128) :
    broadcastTo S4x2048x128 x broadcasts_S4x2048x1_S4x2048x128 (ix3 hh n e) = x (ix3 hh n (0 : Fin 1)) := by
  refine broadcastTo_apply x broadcasts_S4x2048x1_S4x2048x128 (ix3 hh n e) (ix3 hh n (0 : Fin 1)) fun a => ?_
  match a with
  | ⟨0, _⟩ => rfl
  | ⟨1, _⟩ => rfl
  | ⟨2, _⟩ => rfl

/-- A [4, 2048] array viewed as the column [4, 2048, 1]. -/
theorem colCast_apply (x : FVec Ideal S4x2048 .f32) (hh : Fin 4) (n : Fin 2048) (u : Fin 1) :
    shapeCast S4x2048x1 x shapeCasts_S4x2048_S4x2048x1 (ix3 hh n u) = x (ix2 hh n) := by
  refine shapeCast_apply x shapeCasts_S4x2048_S4x2048x1 (ix3 hh n u) (ix2 hh n) ?_
  have hu : u.val = 0 := by omega
  rw [Shape.rowMajor_val_two, Shape.rowMajor_val_three]
  show hh.val * 2048 + n.val = (hh.val * 2048 + n.val) * 1 + u.val
  omega

/-- The lane sum of a [4, 2048, 128] array at (h, n): the sum over the lane coordinate. -/
theorem laneSum_apply (x : FVec Ideal S4x2048x128 .f32) (hh : Fin 4) (n : Fin 2048) :
    multiReduction .add [2] S4x2048 x 0x00000000#32 reduces_S4x2048x128_S4x2048 (.inl rfl) rfl (ix2 hh n)
      = ∑ e : Fin 128, x (ix3 hh n e) := by
  refine (Ideal.multiReduction_add_single x 0x00000000#32 reduces_S4x2048x128_S4x2048 (.inl rfl) rfl (ix2 hh n)).trans ?_
  refine Finset.sum_congr rfl fun e _ => congrArg x ?_
  funext a
  apply Fin.ext
  match a with
  | ⟨0, _⟩ => rfl
  | ⟨1, _⟩ => rfl
  | ⟨2, _⟩ => rfl

/-! ## The payloads -/

/-- The unnormalised rows the body computes, at (h, n, e). -/
theorem pay2_apply (x0 x1 x2 : Vec Ideal S1x4x2048x128 .f32) (r : Vec Ideal S1x2048 .f32) (hh : Fin 4) (n : Fin 2048) (e : Fin 128) :
    k0_pay2 (F := Ideal) x0 x1 x2 r (ix3 hh n e)
      = ∑ d : Fin 128, act (x0 (ix4 (0 : Fin 1) hh n d))
          * ∑ n' : Fin 2048, (act (x1 (ix4 (0 : Fin 1) hh n' d)) * r (ix2 (0 : Fin 1) n')) * (x2 (ix4 (0 : Fin 1) hh n' e) * r (ix2 (0 : Fin 1) n')) := by
  unfold k0_pay2
  refine (matmul_att_apply _ _ hh n e).trans ?_
  refine Finset.sum_congr rfl fun d _ => ?_
  refine congrArg₂ (· * ·) ?_ ?_
  · show act (shapeCast S4x2048x128 x0 shapeCasts_S1x4x2048x128_S4x2048x128 (ix3 hh n d)) = _
    rw [shapeCast_1abc_abc_apply]
  · refine (matmul_kv_apply _ _ hh d e).trans ?_
    refine Finset.sum_congr rfl fun n' _ => ?_
    have e1 : ∀ (a c : FVec Ideal S4x2048x128 .f32) (j : S4x2048x128.Idx),
        truncf .bf16 (mulf a c) bitsLt_bf16_f32 j = a j * c j := fun _ _ _ => rfl
    refine (congrArg₂ (· * ·) (e1 _ _ (ix3 hh n' d)) (e1 _ _ (ix3 hh n' e))).trans ?_
    refine congrArg₂ (· * ·) (congrArg₂ (· * ·) ?_ ?_) (congrArg₂ (· * ·) ?_ ?_)
    · show act (shapeCast S4x2048x128 x1 shapeCasts_S1x4x2048x128_S4x2048x128 (ix3 hh n' d)) = _
      rw [shapeCast_1abc_abc_apply]
    · exact maskBcast_apply r hh n' d
    · exact shapeCast_1abc_abc_apply x2 shapeCasts_S1x4x2048x128_S4x2048x128 hh n' e
    · exact maskBcast_apply r hh n' e

/-- The rows' mean squares, at (h, n). -/
theorem pay3_apply (x0 x1 x2 : Vec Ideal S1x4x2048x128 .f32) (r : Vec Ideal S1x2048 .f32) (hh : Fin 4) (n : Fin 2048) (u : Fin 1) :
    k0_pay3 (F := Ideal) x0 x1 x2 r (ix3 hh n u)
      = Ideal.div (∑ e : Fin 128, k0_pay2 (F := Ideal) x0 x1 x2 r (ix3 hh n e) * k0_pay2 (F := Ideal) x0 x1 x2 r (ix3 hh n e))
          (Ideal.ofBits .f32 0x43000000#32) := by
  unfold k0_pay3
  refine congrArg₂ Ideal.div ?_ rfl
  refine (colCast_apply _ hh n u).trans ?_
  exact laneSum_apply _ hh n

/-- The stored block, at (h, n, e). -/
theorem pay1_apply (v31 : FVec Ideal S4x2048x128 .f32) (v36 : FVec Ideal S4x2048x1 .f32) (u : Fin 1) (hh : Fin 4) (n : Fin 2048) (e : Fin 128) :
    k0_pay1 (F := Ideal) v31 v36 (ix4 u hh n e)
      = v31 (ix3 hh n e) * Ideal.rsqrt (v36 (ix3 hh n (0 : Fin 1)) + Ideal.ofBits .f32 0x358637BD#32) := by
  unfold k0_pay1
  refine (shapeCast_abc_1abc_apply _ shapeCasts_S4x2048x128_S1x4x2048x128 u hh n e).trans ?_
  refine congrArg₂ (· * ·) rfl ?_
  exact colBcast_apply _ hh n e

/-! ## The stored block is the specification on the point's rows -/

/-- When the blocks q, k, v are the rows (b, H h) of Q, K, V and r is row b of the mask, the stored value at
    (h, n, e) is the specification at (b, H h, n, e). -/
theorem stored_apply (Q K V : QKV.Idx → EReal) (M : MSK.Idx → EReal) (b : Fin 4) (H : Fin 4 → Fin 16)
    (x0 x1 x2 : Vec Ideal S1x4x2048x128 .f32) (r : Vec Ideal S1x2048 .f32)
    (hq : ∀ (hh : Fin 4) (n : Fin 2048) (d : Fin 128), x0 (ix4 (0 : Fin 1) hh n d) = Q (ix4 b (H hh) n d))
    (hk : ∀ (hh : Fin 4) (n : Fin 2048) (d : Fin 128), x1 (ix4 (0 : Fin 1) hh n d) = K (ix4 b (H hh) n d))
    (hv : ∀ (hh : Fin 4) (n : Fin 2048) (d : Fin 128), x2 (ix4 (0 : Fin 1) hh n d) = V (ix4 b (H hh) n d))
    (hm : ∀ n : Fin 2048, r (ix2 (0 : Fin 1) n) = M (ix2 b n))
    (u : Fin 1) (hh : Fin 4) (n : Fin 2048) (e : Fin 128) :
    k0_pay1 (F := Ideal) (k0_pay2 (F := Ideal) x0 x1 x2 r) (k0_pay3 (F := Ideal) x0 x1 x2 r) (ix4 u hh n e)
      = outAt Q K V M b (H hh) n e := by
  have hatt : ∀ e' : Fin 128, k0_pay2 (F := Ideal) x0 x1 x2 r (ix3 hh n e') = att Q K V M b (H hh) n e' := fun e' => by
    rw [pay2_apply]
    unfold att kv
    refine Finset.sum_congr rfl fun d _ => ?_
    rw [hq]
    refine congrArg _ (Finset.sum_congr rfl fun n' _ => ?_)
    rw [hk, hv, hm]
  rw [pay1_apply, pay3_apply]
  unfold outAt meanSq
  simp only [hatt]

end Cert.KernelIdeal.Payload

end
-- ==== Proof.KernelValue.lean ====
/-
  From the grid's blocks to the whole result array.

  The grid is 4 × 4: point t holds batch row b(t) and the four heads 4·g(t) … 4·g(t) + 3, where
  (b(t), g(t), 0, 0) is the block index of the three [1, 4, 2048, 128] input windows and of the output
  window at t; the mask's window is the whole [4, 2048] array, of which the body loads row b(t).
  So at point t: the element (0, h, n, d) of an input block is the argument array at (b(t), 4·g(t) + h, n, d),
  the loaded mask row at n is the mask at (b(t), n), and by the body's arithmetic read at an index the block
  written back is the specification's result restricted to rows (b(t), 4·g(t) + h). Every index (b, H, n, e) of
  the result array lies in the block of the point with block index (b, H / 4), so the sixteen blocks cover
  the array and it ends holding the specification's result.
-/
import proofs.«166232_j3040836845907_1_alg».proof.Proof.Spec
import proofs.«166232_j3040836845907_1_alg».proof.Proof.KernelPayload
import proofs.«166232_j3040836845907_1_alg».proof.Proof.Gen.KernelIdeal.Frame
import proofs.«166232_j3040836845907_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.LinAttn

theorem hz4 : (![0, 0, 0, 0] : Fin 4 → Nat) = fun _ => 0 := funext fun a => by fin_cases a <;> rfl

/-! ## What one point's body leaves in the output block -/

section AnyInstance
variable {F : FTy → Type} [FloatOps F]

/-- The mask row the body loads at grid coordinates `i`: row `i 0` of the staged mask, as a [1, 2048] block. -/
def maskRow (i : grid0.Coords) (x3 : Vec F S4x2048 .f32) : Vec F S1x2048 .f32 :=
  View.ld x3 (Rect.unit (s := S4x2048) (k0_off1 i) S1x2048.size (k0_off1_inb i))

/-- The body's one store covers the output block, so the block ends at the store's payload: the normalised rows
    computed from the three loaded blocks and the loaded mask row. -/
theorem out_A (c : Dev nD) (i : grid0.Coords) (arg2 : Memref sig .tc .vmem S1x4x2048x128 .f32) (harg2 : arg2.IsWhole) (arg3 : Memref sig .tc .vmem S1x4x2048x128 .f32) (harg3 : arg3.IsWhole) (arg4 : Memref sig .tc .vmem S1x4x2048x128 .f32) (harg4 : arg4.IsWhole) (arg5 : Memref sig .tc .vmem S4x2048 .f32) (harg5 : arg5.IsWhole) (arg6 : Memref sig .tc .vmem S1x4x2048x128 .f32) (harg6 : arg6.IsWhole) (x0 : Vec F S1x4x2048x128 .f32) (x1 : Vec F S1x4x2048x128 .f32) (x2 : Vec F S1x4x2048x128 .f32) (x3 : Vec F S4x2048 .f32) :
    out0_A_4 c i arg2 harg2 arg3 harg3 arg4 harg4 arg5 harg5 arg6 harg6 x0 x1 x2 x3 = k0_pay1 (k0_pay2 x0 x1 x2 (maskRow i x3)) (k0_pay3 x0 x1 x2 (maskRow i x3)) := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_run_names
  rw [View.canon_unit_zero hz4]
  simp only [View.readAt_eq_ld, harg2.read_unread, harg3.read_unread, harg4.read_unread, harg5.read_unread, View.ld_unit_zero (S := S1x4x2048x128) hz4]
  rfl

end AnyInstance

/-! ## The index maps over the grid -/

/-- The three input windows move with the output window; the last two block coordinates are zero; the mask's
    window does not move; the loaded mask row is the output's batch row; the block coordinates stay in range. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 2) = 0 ∧ win0_3.index t (1 : Fin 2) = 0
    ∧ win0_4.index t (2 : Fin 4) = 0 ∧ win0_4.index t (3 : Fin 4) = 0
    ∧ win0_4.index t (0 : Fin 4) < 4 ∧ win0_4.index t (1 : Fin 4) < 4
    ∧ k0_off1 (grid0.coords t) (0 : Fin 2) = win0_4.index t (0 : Fin 4) ∧ k0_off1 (grid0.coords t) (1 : Fin 2) = 0 :=
  (by decide +kernel : ∀ t : Fin grid0.N, _)

/-- Every (batch row, group of four heads) is some point's output block. -/
theorem idx_onto : ∀ (q0 : Fin 4) (q1 : Fin 4), ∃ t : Fin cfg0.N, win0_4.index t = ![q0.val, q1.val, 0, 0] :=
  (by decide +kernel : ∀ (q0 : Fin 4) (q1 : Fin 4), ∃ t : Fin grid0.N, win0_4.index t = ![q0.val, q1.val, 0, 0])

/-- The batch row of point `t`. -/
def bOf (t : Fin cfg0.N) : Fin 4 := ⟨win0_4.index t (0 : Fin 4), (idx_facts t).2.2.2.2.2.2.2.2.2.2.2.2.2.2.2.2.1⟩

/-- The head that row `hh` of point `t`'s blocks holds. -/
def hOf (t : Fin cfg0.N) (hh : Fin 4) : Fin 16 :=
  ⟨win0_4.index t (1 : Fin 4) * 4 + hh.val, by
    have := (idx_facts t).2.2.2.2.2.2.2.2.2.2.2.2.2.2.2.2.2.1
    have := hh.isLt
    omega⟩

variable (m : (ℓ : Loc nD τ sig) → Buf (Elt Ideal) ℓ) (ρ : Dev nD → PrngReg)

/-! ## The blocks as rows of the argument arrays -/

/-- Window 0's block at `t`, at (0, h, n, d), is Q at (b(t), head(t, h), n, d). -/
theorem iblk0_apply (c : Dev nD) (t : Fin cfg0.N) (hh : Fin 4) (n : Fin 2048) (d : Fin 128) :
    (iblk m c 0 t : Vec Ideal S1x4x2048x128 .f32) (ix4 (0 : Fin 1) hh n d)
      = (m ((c : Thread nD τ).loc main_arg0) : S4x16x2048x128.Idx → EReal) (ix4 (bOf t) (hOf t hh) n d) := by
  obtain ⟨e0, e1, e2, e3, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * 0 = win0_4.index t (0 : Fin 4); omega
  | ⟨1, _⟩ => show win0_0.index t (1 : Fin 4) * 4 + 1 * hh.val = win0_4.index t (1 : Fin 4) * 4 + hh.val; omega
  | ⟨2, _⟩ => show win0_0.index t (2 : Fin 4) * 2048 + 1 * n.val = n.val; omega
  | ⟨3, _⟩ => show win0_0.index t (3 : Fin 4) * 128 + 1 * d.val = d.val; omega

/-- Window 1's block at `t`, at (0, h, n, d), is K at (b(t), head(t, h), n, d). -/
theorem iblk1_apply (c : Dev nD) (t : Fin cfg0.N) (hh : Fin 4) (n : Fin 2048) (d : Fin 128) :
    (iblk m c 1 t : Vec Ideal S1x4x2048x128 .f32) (ix4 (0 : Fin 1) hh n d)
      = (m ((c : Thread nD τ).loc main_arg1) : S4x16x2048x128.Idx → EReal) (ix4 (bOf t) (hOf t hh) n d) := by
  obtain ⟨-, -, -, -, e0, e1, e2, e3, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * 0 = win0_4.index t (0 : Fin 4); omega
  | ⟨1, _⟩ => show win0_1.index t (1 : Fin 4) * 4 + 1 * hh.val = win0_4.index t (1 : Fin 4) * 4 + hh.val; omega
  | ⟨2, _⟩ => show win0_1.index t (2 : Fin 4) * 2048 + 1 * n.val = n.val; omega
  | ⟨3, _⟩ => show win0_1.index t (3 : Fin 4) * 128 + 1 * d.val = d.val; omega

/-- Window 2's block at `t`, at (0, h, n, d), is V at (b(t), head(t, h), n, d). -/
theorem iblk2_apply (c : Dev nD) (t : Fin cfg0.N) (hh : Fin 4) (n : Fin 2048) (d : Fin 128) :
    (iblk m c 2 t : Vec Ideal S1x4x2048x128 .f32) (ix4 (0 : Fin 1) hh n d)
      = (m ((c : Thread nD τ).loc main_arg2) : S4x16x2048x128.Idx → EReal) (ix4 (bOf t) (hOf t hh) n d) := by
  obtain ⟨-, -, -, -, -, -, -, -, e0, e1, e2, e3, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 4) * 1 + 1 * 0 = win0_4.index t (0 : Fin 4); omega
  | ⟨1, _⟩ => show win0_2.index t (1 : Fin 4) * 4 + 1 * hh.val = win0_4.index t (1 : Fin 4) * 4 + hh.val; omega
  | ⟨2, _⟩ => show win0_2.index t (2 : Fin 4) * 2048 + 1 * n.val = n.val; omega
  | ⟨3, _⟩ => show win0_2.index t (3 : Fin 4) * 128 + 1 * d.val = d.val; omega

/-- The mask row loaded at `t`, at (0, n), is the mask at (b(t), n). -/
theorem maskRow_apply (c : Dev nD) (t : Fin cfg0.N) (n : Fin 2048) :
    maskRow (F := Ideal) (grid0.coords t) (iblk m c 3 t) (ix2 (0 : Fin 1) n)
      = (m ((c : Thread nD τ).loc main_arg3) : S4x2048.Idx → EReal) (ix2 (bOf t) n) := by
  obtain ⟨-, -, -, -, -, -, -, -, -, -, -, -, e0, e1, -, -, -, -, o0, o1⟩ := idx_facts t
  unfold maskRow
  show (iblk m c 3 t : Vec Ideal S4x2048 .f32) ((Rect.unit (s := S4x2048) (k0_off1 (grid0.coords t)) S1x2048.size (k0_off1_inb (grid0.coords t))).emb (ix2 (0 : Fin 1) n)) = _
  unfold iblk
  rw [View.read_apply]
  show V m c main_arg3 _ = m (c.tc.loc main_arg3) _
  unfold V
  congr 1
  funext a
  apply Fin.ext
  match a with
  | ⟨0, _⟩ => show win0_3.index t (0 : Fin 2) * 4 + 1 * (k0_off1 (grid0.coords t) (0 : Fin 2) + 1 * 0) = win0_4.index t (0 : Fin 4); omega
  | ⟨1, _⟩ => show win0_3.index t (1 : Fin 2) * 2048 + 1 * (k0_off1 (grid0.coords t) (1 : Fin 2) + 1 * n.val) = n.val; omega

/-! ## What a point writes back, the cover, the array -/

/-- The result array the specification gives for the launch contents of the four arguments on core `c`. -/
abbrev result (c : Dev nD) : Buf (Elt Ideal) ((c : Thread nD τ).loc main_v0) :=
  out (m ((c : Thread nD τ).loc main_arg0)) (m ((c : Thread nD τ).loc main_arg1)) (m ((c : Thread nD τ).loc main_arg2))
    (m ((c : Thread nD τ).loc main_arg3))

/-- The stored block at a block index `y` is the specification at the array index under `y`, for any map `emb`
    of block indices that sends (u, h, n, e) to (b, H h, n, e). -/
theorem stored_block (Q K V : QKV.Idx → EReal) (M : MSK.Idx → EReal) (b : Fin 4) (H : Fin 4 → Fin 16)
    (x0 x1 x2 : Vec Ideal S1x4x2048x128 .f32) (r : Vec Ideal S1x2048 .f32)
    (hq : ∀ (hh : Fin 4) (n : Fin 2048) (d : Fin 128), x0 (ix4 (0 : Fin 1) hh n d) = Q (ix4 b (H hh) n d))
    (hk : ∀ (hh : Fin 4) (n : Fin 2048) (d : Fin 128), x1 (ix4 (0 : Fin 1) hh n d) = K (ix4 b (H hh) n d))
    (hv : ∀ (hh : Fin 4) (n : Fin 2048) (d : Fin 128), x2 (ix4 (0 : Fin 1) hh n d) = V (ix4 b (H hh) n d))
    (hm : ∀ n : Fin 2048, r (ix2 (0 : Fin 1) n) = M (ix2 b n))
    (emb : S1x4x2048x128.Idx → QKV.Idx)
    (hemb : ∀ (u : Fin 1) (hh : Fin 4) (n : Fin 2048) (e : Fin 128), emb (ix4 u hh n e) = ix4 b (H hh) n e)
    (y : S1x4x2048x128.Idx) :
    k0_pay1 (F := Ideal) (k0_pay2 (F := Ideal) x0 x1 x2 r) (k0_pay3 (F := Ideal) x0 x1 x2 r) y = out Q K V M (emb y) := by
  obtain ⟨u, hh, n, e, rfl⟩ : ∃ (u : Fin 1) (hh : Fin 4) (n : Fin 2048) (e : Fin 128), y = ix4 u hh n e :=
    ⟨y 0, y 1, y 2, y 3, eq_ix4 y⟩
  rw [hemb, out_ix4]
  exact Cert.KernelIdeal.Payload.stored_apply Q K V M b H x0 x1 x2 r hq hk hv hm u hh n e

/-- WHAT POINT `t` WRITES BACK is block `t` of the specification's result. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold outsAt0
  rw [out_A]
  obtain ⟨-, -, -, -, -, -, -, -, -, -, -, -, -, -, e2, e3, -⟩ := idx_facts t
  funext y
  show k0_pay1 (F := Ideal) (k0_pay2 (F := Ideal) (iblk m c 0 t) (iblk m c 1 t) (iblk m c 2 t) (maskRow (grid0.coords t) (iblk m c 3 t)))
      (k0_pay3 (F := Ideal) (iblk m c 0 t) (iblk m c 1 t) (iblk m c 2 t) (maskRow (grid0.coords t) (iblk m c 3 t))) y
    = result m c (((cfg0.win 4).blk t).view.emb y)
  refine stored_block _ _ _ _ (bOf t) (hOf t) _ _ _ _ (iblk0_apply m c t) (iblk1_apply m c t) (iblk2_apply m c t)
    (maskRow_apply m c t) (fun y => ((cfg0.win 4).blk t).view.emb y) (fun u hh n e => ?_) y
  have hu : u.val = 0 := by omega
  funext a
  apply Fin.ext
  match a with
  | ⟨0, _⟩ => show win0_4.index t (0 : Fin 4) * 1 + 1 * u.val = win0_4.index t (0 : Fin 4); omega
  | ⟨1, _⟩ => show win0_4.index t (1 : Fin 4) * 4 + 1 * hh.val = win0_4.index t (1 : Fin 4) * 4 + hh.val; omega
  | ⟨2, _⟩ => show win0_4.index t (2 : Fin 4) * 2048 + 1 * n.val = n.val; omega
  | ⟨3, _⟩ => show win0_4.index t (3 : Fin 4) * 128 + 1 * e.val = e.val; omega

/-- An index of the array is in point `t`'s block iff each coordinate is in the block's range on its axis. -/
theorem mem_blk (t : Fin cfg0.N) (i : S4x16x2048x128.Idx) :
    i ∈ ((cfg0.win 4).blk t).view.set ↔ ∀ a : Fin 4, win0_4.index t a * S1x4x2048x128.size a ≤ (i a).val ∧ (i a).val < win0_4.index t a * S1x4x2048x128.size a + S1x4x2048x128.size a := by
  show i ∈ ((View.whole main_v0).slice (win0_4.rect t)).set ↔ _
  rw [View.set_slice_whole, Rect.mem_set_unit]
  exact Iff.rfl

/-- Every index of the result array is in some point's block: the one with block index (b, H / 4). -/
theorem cover (i : S4x16x2048x128.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 128 := (i 3).isLt
  obtain ⟨t, ht⟩ := idx_onto ⟨(i 0).val, hi0⟩ ⟨(i 1).val / 4, by omega⟩
  have q0 : win0_4.index t (0 : Fin 4) = (i 0).val := congrFun ht 0
  have q1 : win0_4.index t (1 : Fin 4) = (i 1).val / 4 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 4 ≤ (i 1).val ∧ (i 1).val < win0_4.index t (1 : Fin 4) * 4 + 4; omega
  | ⟨2, _⟩ => show win0_4.index t (2 : Fin 4) * 2048 ≤ (i 2).val ∧ (i 2).val < win0_4.index t (2 : Fin 4) * 2048 + 2048; omega
  | ⟨3, _⟩ => show win0_4.index t (3 : Fin 4) * 128 ≤ (i 3).val ∧ (i 3).val < win0_4.index t (3 : Fin 4) * 128 + 128; omega

/-- THE ARRAY after the run is the specification's result. -/
theorem final (c : Dev nD) : (dats m 0 c).arrAt 4 cfg0.N = result m c :=
  (dats m 0 c).arrAt_eq_of_cover 4 (result m c) (fun t _ => flushed_eq m c t) cover

/-- The run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Hand

end
-- ==== Proof.RefTerm.lean ====
/-
  The reference program's result as ONE term of its four argument arrays, for any float instance: the
  module's operations composed in program order — jax's `elu` as the module spells it (`eluTerm`: x where
  x > 0, else 1 · expm1 of x guarded to 0 where x > 0), one added to it for the queries and the keys,
  the mask broadcast along heads and the head dimension and multiplied into keys and values, the two
  batched contractions (over the sequence, then over the head dimension), and the root-mean-square
  normalisation of each row (`refOut`).
-/
import proofs.«166232_j3040836845907_1_alg».proof.Proof.Gen.ReferenceIdeal

noncomputable section

namespace Cert.ReferenceIdeal.RefValue

open Cert.ReferenceIdeal Cert.ReferenceIdeal.Gen Idealize.ShloMosaic

variable {F : FTy → Type} [FloatOps F]

/-- The splat of a scalar word over the arrays' shape. -/
def splat4 (w : BitVec 32) : FVec F S4x16x2048x128 .f32 :=
  broadcastInDim S4x16x2048x128 ![] bcast_S_S4x16x2048x128 (constant S_ .f32 w)

/-- The splat of a scalar word over the rows' column shape. -/
def splatCol (w : BitVec 32) : FVec F S4x16x2048x1 .f32 :=
  broadcastInDim S4x16x2048x1 ![] bcast_S_S4x16x2048x1 (constant S_ .f32 w)

/-- jax.nn.elu as the module spells it: x where x > 0, else 1 · expm1 (x guarded to 0 where x > 0). -/
def eluTerm (x : FVec F S4x16x2048x128 .f32) : FVec F S4x16x2048x128 .f32 :=
  select (cmpf .ogt x (splat4 0x00000000#32)) x
    (mulf (splat4 0x3F800000#32)
      (Host.expm1 (select (cmpf .ogt x (splat4 0x00000000#32))
        (broadcastInDim S4x16x2048x128 ![] bcast_S_S4x16x2048x128 (id (constant S_ .f32 0x00000000#32))) x)))

/-- The mask with a unit heads axis and a unit head-dimension axis. -/
def maskCol (mask : FVec F S4x2048 .f32) : FVec F S4x1x2048x1 .f32 :=
  broadcastInDim S4x1x2048x1 ![0, 2] bcast_S4x2048_S4x1x2048x1_0_2 mask

/-- The mask broadcast over heads and the head dimension. -/
def maskFull (mask : FVec F S4x2048 .f32) : FVec F S4x16x2048x128 .f32 :=
  broadcastInDim S4x16x2048x128 ![0, 1, 2, 3] bcast_S4x1x2048x1_S4x16x2048x128_0_1_2_3 (maskCol mask)

/-- The reference's unnormalised attention rows: (elu q + 1) contracted with the sequence sum of the masked
    (elu k + 1) against the masked v. -/
def refAtt (q k v : FVec F S4x16x2048x128 .f32) (mask : FVec F S4x2048 .f32) : FVec F S4x16x2048x128 .f32 :=
  Host.dotGeneral dot_S4x16x2048x128_S4x16x128x128_S4x16x2048x128_3_2_2_3_01_01 none
    (addf (eluTerm q) (splat4 0x3F800000#32))
    (Host.dotGeneral dot_S4x16x2048x128_S4x16x2048x128_S4x16x128x128_2_2_3_3_01_01 none
      (mulf (addf (eluTerm k) (splat4 0x3F800000#32)) (maskFull mask))
      (mulf v (maskFull mask)))

/-- The root-mean-square normalisation of each row along the last axis, as the module spells it. -/
def rmsNorm (a : FVec F S4x16x2048x128 .f32) : FVec F S4x16x2048x128 .f32 :=
  mulf a
    (broadcastInDim S4x16x2048x128 ![0, 1, 2, 3] bcast_S4x16x2048x1_S4x16x2048x128_0_1_2_3
      (Host.rsqrt
        (addf
          (Host.divf
            (broadcastInDim S4x16x2048x1 ![0, 1, 2] bcast_S4x16x2048_S4x16x2048x1_0_1_2
              (Host.reduceAdd (mulf a a) (constant S_ .f32 0x00000000#32) reducesTo_S4x16x2048x128_S4x16x2048_d3 h_S_))
            (splatCol 0x43000000#32))
          (splatCol 0x358637BD#32))))

/-- The reference's result. -/
def refOut (q k v : FVec F S4x16x2048x128 .f32) (mask : FVec F S4x2048 .f32) : FVec F S4x16x2048x128 .f32 :=
  rmsNorm (refAtt q k v mask)

end Cert.ReferenceIdeal.RefValue

end
-- ==== Proof.RefRun.lean ====
/-
  The reference program's run. Its @main, with the two calls of @elu (and, inside each, the calls of @_where and
  @_where_0) unfolded at their call sites over the calls' buffer records, is a straight line of fifty-six
  StableHLO operations: the mask's first broadcast; fifteen for elu of the queries (the two zero splats and
  comparisons, the guarded argument of expm1 — the scalar zero converted to its own type, broadcast, selected —,
  expm1, the unit splat, the product, the outer select); the unit splat and the sum; the same eighteen for the
  keys; then the mask's second broadcast into keys and values, the two batched contractions, and the
  root-mean-square normalisation (square, row sum, its broadcast, the division by 128, the added epsilon, the
  reciprocal square root, its broadcast, the product). Every weakly fair execution of it terminates with the
  result buffer at `RefValue.refOut` of the four argument arrays' launch contents and the arguments unchanged:
  the fold of the operations' results over the launch contents, read at the result buffer, is that term by
  computation.
-/
import proofs.«166232_j3040836845907_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's fifty-six operations in order, the calls unfolded: each @elu is fifteen (its seven own operations
    before the call of @_where, that function's three, its four own after it, and @_where_0's select), run
    into the buffers of the call's record. -/
abbrev ops : List (HloOp τ sig (Elt F)) :=
  [ unary main_arg3 main_v0 (broadcastInDim S4x1x2048x1 ![0, 2] bcast_S4x2048_S4x1x2048x1_0_2 : (⟨S4x2048, .f32⟩ : BufTy).Contents (Elt F) → (⟨S4x1x2048x1, .f32⟩ : BufTy).Contents (Elt F)),
    TRef.nullary main_call0.cst (constant S_ .f32 0x00000000#32),
    TRef.unary main_call0.cst main_call0.v0 (broadcastInDim S4x16x2048x128 ![] bcast_S_S4x16x2048x128),
    TRef.binary (.of main_arg0) main_call0.v0 main_call0.v1 (cmpf .ogt),
    TRef.nullary main_call0.cst_0 (constant S_ .f32 0x00000000#32),
    TRef.unary main_call0.cst_0 main_call0.v2 (broadcastInDim S4x16x2048x128 ![] bcast_S_S4x16x2048x128),
    TRef.binary (.of main_arg0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4x16x2048x128 ![] bcast_S_S4x16x2048x128),
    TRef.ternary main_call0.v3 main_call0.call0.v1 (.of main_arg0) main_call0.call0.v2 select,
    TRef.unary main_call0.call0.v2 main_call0.v5 Host.expm1,
    TRef.nullary main_call0.cst_2 (constant S_ .f32 0x3F800000#32),
    TRef.unary main_call0.cst_2 main_call0.v6 (broadcastInDim S4x16x2048x128 ![] bcast_S_S4x16x2048x128),
    TRef.binary main_call0.v6 main_call0.v5 main_call0.v7 mulf,
    TRef.ternary main_call0.v1 (.of main_arg0) main_call0.v7 main_call0.call1.v0 select,
    nullary main_cst (constant S_ .f32 0x3F800000#32),
    unary main_cst main_v2 (broadcastInDim S4x16x2048x128 ![] bcast_S_S4x16x2048x128 : (⟨S_, .f32⟩ : BufTy).Contents (Elt F) → (⟨S4x16x2048x128, .f32⟩ : BufTy).Contents (Elt F)),
    binary main_v1 main_v2 main_v3 (addf : (⟨S4x16x2048x128, .f32⟩ : BufTy).Contents (Elt F) → (⟨S4x16x2048x128, .f32⟩ : BufTy).Contents (Elt F) → (⟨S4x16x2048x128, .f32⟩ : BufTy).Contents (Elt F)),
    TRef.nullary main_call1.cst (constant S_ .f32 0x00000000#32),
    TRef.unary main_call1.cst main_call1.v0 (broadcastInDim S4x16x2048x128 ![] bcast_S_S4x16x2048x128),
    TRef.binary (.of main_arg1) main_call1.v0 main_call1.v1 (cmpf .ogt),
    TRef.nullary main_call1.cst_0 (constant S_ .f32 0x00000000#32),
    TRef.unary main_call1.cst_0 main_call1.v2 (broadcastInDim S4x16x2048x128 ![] bcast_S_S4x16x2048x128),
    TRef.binary (.of main_arg1) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S4x16x2048x128 ![] bcast_S_S4x16x2048x128),
    TRef.ternary main_call1.v3 main_call1.call0.v1 (.of main_arg1) main_call1.call0.v2 select,
    TRef.unary main_call1.call0.v2 main_call1.v5 Host.expm1,
    TRef.nullary main_call1.cst_2 (constant S_ .f32 0x3F800000#32),
    TRef.unary main_call1.cst_2 main_call1.v6 (broadcastInDim S4x16x2048x128 ![] bcast_S_S4x16x2048x128),
    TRef.binary main_call1.v6 main_call1.v5 main_call1.v7 mulf,
    TRef.ternary main_call1.v1 (.of main_arg1) main_call1.v7 main_call1.call1.v0 select,
    nullary main_cst_0 (constant S_ .f32 0x3F800000#32),
    unary main_cst_0 main_v5 (broadcastInDim S4x16x2048x128 ![] bcast_S_S4x16x2048x128 : (⟨S_, .f32⟩ : BufTy).Contents (Elt F) → (⟨S4x16x2048x128, .f32⟩ : BufTy).Contents (Elt F)),
    binary main_v4 main_v5 main_v6 (addf : (⟨S4x16x2048x128, .f32⟩ : BufTy).Contents (Elt F) → (⟨S4x16x2048x128, .f32⟩ : BufTy).Contents (Elt F) → (⟨S4x16x2048x128, .f32⟩ : BufTy).Contents (Elt F)),
    unary main_v0 main_v7 (broadcastInDim S4x16x2048x128 ![0, 1, 2, 3] bcast_S4x1x2048x1_S4x16x2048x128_0_1_2_3 : (⟨S4x1x2048x1, .f32⟩ : BufTy).Contents (Elt F) → (⟨S4x16x2048x128, .f32⟩ : BufTy).Contents (Elt F)),
    binary main_v6 main_v7 main_v8 (mulf : (⟨S4x16x2048x128, .f32⟩ : BufTy).Contents (Elt F) → (⟨S4x16x2048x128, .f32⟩ : BufTy).Contents (Elt F) → (⟨S4x16x2048x128, .f32⟩ : BufTy).Contents (Elt F)),
    unary main_v0 main_v9 (broadcastInDim S4x16x2048x128 ![0, 1, 2, 3] bcast_S4x1x2048x1_S4x16x2048x128_0_1_2_3 : (⟨S4x1x2048x1, .f32⟩ : BufTy).Contents (Elt F) → (⟨S4x16x2048x128, .f32⟩ : BufTy).Contents (Elt F)),
    binary main_arg2 main_v9 main_v10 (mulf : (⟨S4x16x2048x128, .f32⟩ : BufTy).Contents (Elt F) → (⟨S4x16x2048x128, .f32⟩ : BufTy).Contents (Elt F) → (⟨S4x16x2048x128, .f32⟩ : BufTy).Contents (Elt F)),
    binary main_v8 main_v10 main_v11 ((fun l r => Host.dotGeneral dot_S4x16x2048x128_S4x16x2048x128_S4x16x128x128_2_2_3_3_01_01 none l r) : (⟨S4x16x2048x128, .f32⟩ : BufTy).Contents (Elt F) → (⟨S4x16x2048x128, .f32⟩ : BufTy).Contents (Elt F) → (⟨S4x16x128x128, .f32⟩ : BufTy).Contents (Elt F)),
    binary main_v3 main_v11 main_v12 ((fun l r => Host.dotGeneral dot_S4x16x2048x128_S4x16x128x128_S4x16x2048x128_3_2_2_3_01_01 none l r) : (⟨S4x16x2048x128, .f32⟩ : BufTy).Contents (Elt F) → (⟨S4x16x128x128, .f32⟩ : BufTy).Contents (Elt F) → (⟨S4x16x2048x128, .f32⟩ : BufTy).Contents (Elt F)),
    binary main_v12 main_v12 main_v13 (mulf : (⟨S4x16x2048x128, .f32⟩ : BufTy).Contents (Elt F) → (⟨S4x16x2048x128, .f32⟩ : BufTy).Contents (Elt F) → (⟨S4x16x2048x128, .f32⟩ : BufTy).Contents (Elt F)),
    nullary main_cst_1 (constant S_ .f32 0x00000000#32),
    binary main_v13 main_cst_1 main_v14 ((fun x v => Host.reduceAdd x v reducesTo_S4x16x2048x128_S4x16x2048_d3 h_S_) : (⟨S4x16x2048x128, .f32⟩ : BufTy).Contents (Elt F) → (⟨S_, .f32⟩ : BufTy).Contents (Elt F) → (⟨S4x16x2048, .f32⟩ : BufTy).Contents (Elt F)),
    unary main_v14 main_v15 (broadcastInDim S4x16x2048x1 ![0, 1, 2] bcast_S4x16x2048_S4x16x2048x1_0_1_2 : (⟨S4x16x2048, .f32⟩ : BufTy).Contents (Elt F) → (⟨S4x16x2048x1, .f32⟩ : BufTy).Contents (Elt F)),
    nullary main_cst_2 (constant S_ .f32 0x43000000#32),
    unary main_cst_2 main_v16 (broadcastInDim S4x16x2048x1 ![] bcast_S_S4x16x2048x1 : (⟨S_, .f32⟩ : BufTy).Contents (Elt F) → (⟨S4x16x2048x1, .f32⟩ : BufTy).Contents (Elt F)),
    binary main_v15 main_v16 main_v17 (Host.divf : (⟨S4x16x2048x1, .f32⟩ : BufTy).Contents (Elt F) → (⟨S4x16x2048x1, .f32⟩ : BufTy).Contents (Elt F) → (⟨S4x16x2048x1, .f32⟩ : BufTy).Contents (Elt F)),
    nullary main_cst_3 (constant S_ .f32 0x358637BD#32),
    unary main_cst_3 main_v18 (broadcastInDim S4x16x2048x1 ![] bcast_S_S4x16x2048x1 : (⟨S_, .f32⟩ : BufTy).Contents (Elt F) → (⟨S4x16x2048x1, .f32⟩ : BufTy).Contents (Elt F)),
    binary main_v17 main_v18 main_v19 (addf : (⟨S4x16x2048x1, .f32⟩ : BufTy).Contents (Elt F) → (⟨S4x16x2048x1, .f32⟩ : BufTy).Contents (Elt F) → (⟨S4x16x2048x1, .f32⟩ : BufTy).Contents (Elt F)),
    unary main_v19 main_v20 (Host.rsqrt : (⟨S4x16x2048x1, .f32⟩ : BufTy).Contents (Elt F) → (⟨S4x16x2048x1, .f32⟩ : BufTy).Contents (Elt F)),
    unary main_v20 main_v21 (broadcastInDim S4x16x2048x128 ![0, 1, 2, 3] bcast_S4x16x2048x1_S4x16x2048x128_0_1_2_3 : (⟨S4x16x2048x1, .f32⟩ : BufTy).Contents (Elt F) → (⟨S4x16x2048x128, .f32⟩ : BufTy).Contents (Elt F)),
    binary main_v12 main_v21 main_v22 (mulf : (⟨S4x16x2048x128, .f32⟩ : BufTy).Contents (Elt F) → (⟨S4x16x2048x128, .f32⟩ : BufTy).Contents (Elt F) → (⟨S4x16x2048x128, .f32⟩ : BufTy).Contents (Elt F)) ]

-- fifty-six sequenced steps re-associated: the recursion goes one level deeper per step
set_option maxRecDepth 2048 in
/-- @main is that straight line: the functions' definitions unfolded at their calls and the records at their
    fields, both sides are one chain of `hlo` steps once sequencing is re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., unary_bufs_sub .., binary_bufs_sub .., unary_bufs_sub .., binary_bufs_sub .., binary_bufs_sub ..,
    binary_bufs_sub .., binary_bufs_sub .., nullary_bufs_sub .., binary_bufs_sub .., unary_bufs_sub .., nullary_bufs_sub ..,
    unary_bufs_sub .., binary_bufs_sub .., nullary_bufs_sub .., unary_bufs_sub .., binary_bufs_sub .., unary_bufs_sub ..,
    unary_bufs_sub .., binary_bufs_sub ..⟩

attribute [local irreducible] Host.reduceAdd in
set_option maxRecDepth 8192 in
/-- The fold at the result buffer is `RefValue.refOut` of the argument contents by computation: the fold unrolled,
    each operation's result decides whether the buffer read is the one it writes, and the typed references'
    transports are the identity at these literal references. The row sum and the two contractions are kept
    folded meanwhile: the equation never looks inside them. -/
theorem out_eq (V : Valuation τ sig (Elt F)) :
    after ops V (main_v22 : DevRef τ sig)
      = RefValue.refOut (V (main_arg0 : DevRef τ sig)) (V (main_arg1 : DevRef τ sig)) (V (main_arg2 : DevRef τ sig))
          (V (main_arg3 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-- On every device, for any float values, from any memory with zero counters: every weakly fair execution of
    @main terminates with the result buffer at `RefValue.refOut` of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = Cert.ReferenceIdeal.RefValue.refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v22).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The reference's result read at the extended reals, index by index.

  At the extended reals every elementwise operation of the reference's term is the textbook one on the
  entries, a broadcast reads its operand at the coordinates it keeps, a batched contraction over one axis
  is the finite sum of the products over that axis's coordinate, and the row reduction is the finite sum
  over the last coordinate. Read this way, entry (b, h, n, e) of the reference's term is

      A[b,h,n,e] · (( Σ_e' A[b,h,n,e']² ) / 128 + ε)^(-1/2),
      A[b,h,n,e] = Σ_d φ(Q[b,h,n,d]) · Σ_n' (φ(K[b,h,n',d]) · m[b,n']) · (V[b,h,n',e] · m[b,n']),

  with φ(x) = elu x + 1: the specification's function of the four argument arrays.
-/
import proofs.«166232_j3040836845907_1_alg».proof.Proof.Spec
import proofs.«166232_j3040836845907_1_alg».proof.Proof.RefTerm
import Idealize.ShloMosaic.Lib.ValueIdx
import Idealize.ShloMosaic.Lib.Pipeline.Value
import Idealize.ShloMosaic.PureOps.Ideal.Laws

noncomputable section

namespace Cert.ReferenceIdeal.RefValueIdeal

open Cert.ReferenceIdeal Cert.ReferenceIdeal.Gen Cert.ReferenceIdeal.RefValue
open Idealize.ShloMosaic Idealize.ShloMosaic.ValueIdx
open scoped BigOperators

/-- The feature map: one added to the reference's elu, entry by entry, is φ of the entry. -/
theorem eluTerm_add_one_apply (x : FVec Ideal S4x16x2048x128 .f32) (i : S4x16x2048x128.Idx) :
    addf (eluTerm x) (splat4 0x3F800000#32) i = Cert.LinAttn.act (x i) :=
  Cert.LinAttn.elu_add_one (x i)

/-- The broadcast mask at (b, h, n, d) is the mask at (b, n). -/
theorem maskFull_apply (mask : FVec Ideal S4x2048 .f32) (b : Fin 4) (h : Fin 16) (n : Fin 2048) (d : Fin 128) :
    maskFull mask (ix4 b h n d) = mask (ix2 b n) := by
  unfold maskFull maskCol
  refine (broadcastInDim_apply _ _ _ (ix4 b h n d) (ix4 b (0 : Fin 1) n (0 : Fin 1)) fun a => ?_).trans ?_
  · match a with
    | ⟨0, _⟩ => rfl
    | ⟨1, _⟩ => rfl
    | ⟨2, _⟩ => rfl
    | ⟨3, _⟩ => rfl
  · refine broadcastInDim_apply _ _ _ (ix4 b (0 : Fin 1) n (0 : Fin 1)) (ix2 b n) fun a => ?_
    match a with
    | ⟨0, _⟩ => rfl
    | ⟨1, _⟩ => rfl

/-- The contraction over the sequence, read at (b, h, d, e): the sum over the sequence position of the
    products of the left operand at (b, h, n, d) and the right operand at (b, h, n, e). -/
theorem dotSeq_apply (l r : FVec Ideal S4x16x2048x128 .f32) (b : Fin 4) (h : Fin 16) (d e : Fin 128) :
    Host.dotGeneral Cert.ReferenceIdeal.dot_S4x16x2048x128_S4x16x2048x128_S4x16x128x128_2_2_3_3_01_01 none l r (ix4 b h d e)
      = ∑ n : Fin 2048, l (ix4 b h n d) * r (ix4 b h n e) := by
  refine (Ideal.dotGeneral_apply Cert.ReferenceIdeal.dot_S4x16x2048x128_S4x16x2048x128_S4x16x128x128_2_2_3_3_01_01 none .single l r (ix4 b h d e)).trans ?_
  rw [← Equiv.sum_comp (contrEquiv1 Cert.ReferenceIdeal.dot_S4x16x2048x128_S4x16x2048x128_S4x16x128x128_2_2_3_3_01_01 2048 rfl rfl).symm]
  refine Finset.sum_congr rfl fun n _ => ?_
  have hl : (Cert.ReferenceIdeal.dot_S4x16x2048x128_S4x16x2048x128_S4x16x128x128_2_2_3_3_01_01).lhsIdx (ix4 b h d e) ((contrEquiv1 Cert.ReferenceIdeal.dot_S4x16x2048x128_S4x16x2048x128_S4x16x128x128_2_2_3_3_01_01 2048 rfl rfl).symm n) = ix4 b h n d := by
    funext ax; apply Fin.ext
    match ax with
    | ⟨0, _⟩ => rfl
    | ⟨1, _⟩ => rfl
    | ⟨2, _⟩ => rfl
    | ⟨3, _⟩ => rfl
  have hr : (Cert.ReferenceIdeal.dot_S4x16x2048x128_S4x16x2048x128_S4x16x128x128_2_2_3_3_01_01).rhsIdx (ix4 b h d e) ((contrEquiv1 Cert.ReferenceIdeal.dot_S4x16x2048x128_S4x16x2048x128_S4x16x128x128_2_2_3_3_01_01 2048 rfl rfl).symm n) = ix4 b h n e := by
    funext ax; apply Fin.ext
    match ax with
    | ⟨0, _⟩ => rfl
    | ⟨1, _⟩ => rfl
    | ⟨2, _⟩ => rfl
    | ⟨3, _⟩ => rfl
  rw [hl, hr]

/-- The contraction over the head dimension, read at (b, h, n, e): the sum over the head coordinate of the
    products of the left operand at (b, h, n, d) and the right operand at (b, h, d, e). -/
theorem dotHead_apply (l : FVec Ideal S4x16x2048x128 .f32) (r : FVec Ideal S4x16x128x128 .f32)
    (b : Fin 4) (h : Fin 16) (n : Fin 2048) (e : Fin 128) :
    Host.dotGeneral Cert.ReferenceIdeal.dot_S4x16x2048x128_S4x16x128x128_S4x16x2048x128_3_2_2_3_01_01 none l r (ix4 b h n e)
      = ∑ d : Fin 128, l (ix4 b h n d) * r (ix4 b h d e) := by
  refine (Ideal.dotGeneral_apply Cert.ReferenceIdeal.dot_S4x16x2048x128_S4x16x128x128_S4x16x2048x128_3_2_2_3_01_01 none .single l r (ix4 b h n e)).trans ?_
  rw [← Equiv.sum_comp (contrEquiv1 Cert.ReferenceIdeal.dot_S4x16x2048x128_S4x16x128x128_S4x16x2048x128_3_2_2_3_01_01 128 rfl rfl).symm]
  refine Finset.sum_congr rfl fun d _ => ?_
  have hl : (Cert.ReferenceIdeal.dot_S4x16x2048x128_S4x16x128x128_S4x16x2048x128_3_2_2_3_01_01).lhsIdx (ix4 b h n e) ((contrEquiv1 Cert.ReferenceIdeal.dot_S4x16x2048x128_S4x16x128x128_S4x16x2048x128_3_2_2_3_01_01 128 rfl rfl).symm d) = ix4 b h n d := by
    funext ax; apply Fin.ext
    match ax with
    | ⟨0, _⟩ => rfl
    | ⟨1, _⟩ => rfl
    | ⟨2, _⟩ => rfl
    | ⟨3, _⟩ => rfl
  have hr : (Cert.ReferenceIdeal.dot_S4x16x2048x128_S4x16x128x128_S4x16x2048x128_3_2_2_3_01_01).rhsIdx (ix4 b h n e) ((contrEquiv1 Cert.ReferenceIdeal.dot_S4x16x2048x128_S4x16x128x128_S4x16x2048x128_3_2_2_3_01_01 128 rfl rfl).symm d) = ix4 b h d e := by
    funext ax; apply Fin.ext
    match ax with
    | ⟨0, _⟩ => rfl
    | ⟨1, _⟩ => rfl
    | ⟨2, _⟩ => rfl
    | ⟨3, _⟩ => rfl
  rw [hl, hr]

/-- The reference's unnormalised attention rows are the specification's A. -/
theorem refAtt_apply (q k v : FVec Ideal S4x16x2048x128 .f32) (mask : FVec Ideal S4x2048 .f32)
    (b : Fin 4) (h : Fin 16) (n : Fin 2048) (e : Fin 128) :
    refAtt q k v mask (ix4 b h n e) = Cert.LinAttn.att q k v mask b h n e := by
  unfold refAtt Cert.LinAttn.att
  refine (dotHead_apply _ _ b h n e).trans ?_
  refine Finset.sum_congr rfl fun d _ => ?_
  refine congrArg₂ (· * ·) (eluTerm_add_one_apply q (ix4 b h n d)) ?_
  unfold Cert.LinAttn.kv
  refine (dotSeq_apply _ _ b h d e).trans ?_
  refine Finset.sum_congr rfl fun n' _ => ?_
  show (addf (eluTerm k) (splat4 0x3F800000#32) (ix4 b h n' d) * maskFull mask (ix4 b h n' d))
      * (v (ix4 b h n' e) * maskFull mask (ix4 b h n' e)) = _
  rw [eluTerm_add_one_apply, maskFull_apply, maskFull_apply]

/-- The row normalisation read at (b, h, n, e): the entry times the reciprocal root of the row's mean
    square plus ε. -/
theorem rmsNorm_apply (a : FVec Ideal S4x16x2048x128 .f32) (b : Fin 4) (h : Fin 16) (n : Fin 2048) (e : Fin 128) :
    rmsNorm a (ix4 b h n e)
      = a (ix4 b h n e) * Ideal.rsqrt
          (Ideal.div (∑ e' : Fin 128, a (ix4 b h n e') * a (ix4 b h n e')) (Ideal.ofBits .f32 0x43000000#32)
            + Ideal.ofBits .f32 0x358637BD#32) := by
  unfold rmsNorm
  refine congrArg (a (ix4 b h n e) * ·) ?_
  refine (broadcastInDim_apply _ _ _ (ix4 b h n e) (ix4 b h n (0 : Fin 1)) fun ax => ?_).trans ?_
  · match ax with
    | ⟨0, _⟩ => rfl
    | ⟨1, _⟩ => rfl
    | ⟨2, _⟩ => rfl
    | ⟨3, _⟩ => rfl
  · refine congrArg (fun t => Ideal.rsqrt (Ideal.div t (Ideal.ofBits .f32 0x43000000#32) + Ideal.ofBits .f32 0x358637BD#32)) ?_
    refine (broadcastInDim_apply _ _ _ (ix4 b h n (0 : Fin 1)) (ix3 b h n) fun ax => ?_).trans ?_
    · match ax with
      | ⟨0, _⟩ => rfl
      | ⟨1, _⟩ => rfl
      | ⟨2, _⟩ => rfl
    · have hR : S4x16x2048x128.Reduces [3] S4x16x2048 := by decide
      refine (Ideal.hostReduceAdd_single reducesTo_S4x16x2048x128_S4x16x2048_d3 hR (mulf a a)
        (Ideal.ofBits .f32 0x00000000#32) (ix3 b h n)).trans ?_
      rw [Ideal.ofBits_zero_f32, zero_add]
      refine Finset.sum_congr rfl fun e' _ => ?_
      have hi : hR.lift (ix3 b h n) e' = ix4 b h n e' := by
        funext ax; apply Fin.ext
        match ax with
        | ⟨0, _⟩ => rfl
        | ⟨1, _⟩ => rfl
        | ⟨2, _⟩ => rfl
        | ⟨3, _⟩ => rfl
      rw [hi]
      rfl

/-- The reference's result is the specification's function of the four argument arrays. -/
theorem refOut_eq (q k v : FVec Ideal S4x16x2048x128 .f32) (mask : FVec Ideal S4x2048 .f32) :
    refOut (F := Ideal) q k v mask = Cert.LinAttn.out q k v mask := by
  funext i
  obtain ⟨b, h, n, e, rfl⟩ : ∃ (b : Fin 4) (h : Fin 16) (n : Fin 2048) (e : Fin 128), i = ix4 b h n e :=
    ⟨i 0, i 1, i 2, i 3, eq_ix4 i⟩
  rw [Cert.LinAttn.out_ix4]
  unfold refOut Cert.LinAttn.outAt Cert.LinAttn.meanSq
  refine (rmsNorm_apply _ b h n e).trans ?_
  simp only [refAtt_apply]

end Cert.ReferenceIdeal.RefValueIdeal

end
-- ==== Proof.lean ====
/-
  The certificate's claims for the masked linear-attention kernel against its jnp reference.

  Both programs compute, from Q, K, V of shape [4, 16, 2048, 128] and a mask of shape [4, 2048],
      out[b,h,n,e] = A[b,h,n,e] · ((Σ_e' A[b,h,n,e']²) / 128 + ε)^(-1/2),
      A[b,h,n,e]   = Σ_d φ(Q[b,h,n,d]) · Σ_n' (φ(K[b,h,n',d]) · m[b,n']) · (V[b,h,n',e] · m[b,n']),
  with φ(x) = elu x + 1 (Proof/Spec.lean). The kernel computes φ as "x + 1 above zero, eˣ elsewhere", rounds
  the factors of its two products to bf16 (the identity over the extended reals) and works on four heads
  of one batch row per grid point; the reference computes φ as jax's elu plus one, and both products as
  batched contractions over the whole arrays. Over the extended reals the two spellings of φ agree at
  every value (Spec.lean, `elu_add_one`), a product into a zero accumulator, a host contraction and a
  sum over a coordinate are the same finite sums, and the sixteen blocks cover the result array; no step
  needs the inputs to be finite.

  The kernel's result array is the specification's function of the arguments (Proof/KernelValue.lean, over
  the body's arithmetic read at an index in Proof/KernelPayload.lean); the reference's run ends at its
  composed term (Proof/RefTerm.lean, Proof/RefRun.lean), which is the same function index by index
  (Proof/RefValue.lean). The ideal pass rewrote nothing, so the idealization claim is trivial; the three
  frame claims are the two kernels' frame runs and the reference's run with the result dropped.
-/
import proofs.«166232_j3040836845907_1_alg».proof.Defs
import proofs.«166232_j3040836845907_1_alg».proof.Proof.Gen.Kernel
import proofs.«166232_j3040836845907_1_alg».proof.Proof.Gen.Kernel.Skeleton
import proofs.«166232_j3040836845907_1_alg».proof.Proof.Gen.Kernel.Launch
import proofs.«166232_j3040836845907_1_alg».proof.Proof.Gen.Kernel.Points
import proofs.«166232_j3040836845907_1_alg».proof.Proof.Gen.Kernel.Frame
import proofs.«166232_j3040836845907_1_alg».proof.Proof.Gen.KernelIdeal
import proofs.«166232_j3040836845907_1_alg».proof.Proof.Gen.KernelIdeal.Skeleton
import proofs.«166232_j3040836845907_1_alg».proof.Proof.Gen.KernelIdeal.Launch
import proofs.«166232_j3040836845907_1_alg».proof.Proof.Gen.KernelIdeal.Points
import proofs.«166232_j3040836845907_1_alg».proof.Proof.Gen.KernelIdeal.Frame
import proofs.«166232_j3040836845907_1_alg».proof.Proof.Gen.KernelIdeal.Value
import proofs.«166232_j3040836845907_1_alg».proof.Proof.Gen.ReferenceIdeal
import proofs.«166232_j3040836845907_1_alg».proof.Proof.Gen.Pre_finite_inputs
import proofs.«166232_j3040836845907_1_alg».proof.Proof.Spec
import proofs.«166232_j3040836845907_1_alg».proof.Proof.KernelPayload
import proofs.«166232_j3040836845907_1_alg».proof.Proof.KernelValue
import proofs.«166232_j3040836845907_1_alg».proof.Proof.RefTerm
import proofs.«166232_j3040836845907_1_alg».proof.Proof.RefRun
import proofs.«166232_j3040836845907_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Over the extended reals the kernel's result array ends at the specification's function of the argument
    arrays, and the reference's result at its composed term of arguments that agree with the kernel's: the same
    function, index by index. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValueIdeal.refOut_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
